-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S8x2048x256 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S2048x256 : Shape := ⟨2, ![2048, 256]⟩
abbrev S2048x2048 : Shape := ⟨2, ![2048, 2048]⟩
abbrev S128x256 : Shape := ⟨2, ![128, 256]⟩
abbrev S128x2048 : Shape := ⟨2, ![128, 2048]⟩
abbrev S128 : Shape := ⟨1, ![128]⟩
abbrev S128x1 : Shape := ⟨2, ![128, 1]⟩
abbrev S1x128x256 : Shape := ⟨3, ![1, 128, 256]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8x2048x256, .f32⟩
  | .hbm, ⟨6, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x2048, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v24 : BitVec 32 := Scalar.addi c0_i32 c16_i32
  let c1_i32 : BitVec 32 := 1#32
  ⟨c0_i32, v24, c1_i32⟩
def k0_mult1 (k0_t1 : Fin k0_t1_loop.trips) : BitVec 32 :=
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v31 : BitVec 32 := Scalar.muli arg11 c1_i32_26
  let v32 : BitVec 32 := Scalar.addi c0_i32_27 v31
  let c128_i32 : BitVec 32 := 128#32
  let v33 : BitVec 32 := Scalar.muli v32 c128_i32
  v33
def k0_off1 (k0_t1 : Fin k0_t1_loop.trips) : Fin 2 → Nat :=
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v31 : BitVec 32 := Scalar.muli arg11 c1_i32_26
  let v32 : BitVec 32 := Scalar.addi c0_i32_27 v31
  let c128_i32 : BitVec 32 := 128#32
  let v33 : BitVec 32 := Scalar.muli v32 c128_i32
  let v34 : BitVec 32 := v33
  let v35 : Index := Scalar.indexCast v34
  let c0_28 : Index := 0#32
  ![v35.toNat, 0]
def k0_off2 (k0_t1 : Fin k0_t1_loop.trips) : Fin 2 → Nat :=
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v31 : BitVec 32 := Scalar.muli arg11 c1_i32_26
  let v32 : BitVec 32 := Scalar.addi c0_i32_27 v31
  let c128_i32 : BitVec 32 := 128#32
  let v33 : BitVec 32 := Scalar.muli v32 c128_i32
  let v34 : BitVec 32 := v33
  let v49 : Index := Scalar.indexCast v34
  let c0_34 : Index := 0#32
  ![v49.toNat, 0]
def k0_off3 (k0_t1 : Fin k0_t1_loop.trips) : Fin 3 → Nat :=
  let c0_36 : Index := 0#32
  let c0_i32_27 : BitVec 32 := 0#32
  let c0_i32 : BitVec 32 := 0#32
  let c1_i32 : BitVec 32 := 1#32
  let arg11 : BitVec 32 := Scf.iv c0_i32 c1_i32 k0_t1
  let c1_i32_26 : BitVec 32 := 1#32
  let v31 : BitVec 32 := Scalar.muli arg11 c1_i32_26
  let v32 : BitVec 32 := Scalar.addi c0_i32_27 v31
  let c128_i32 : BitVec 32 := 128#32
  let v33 : BitVec 32 := Scalar.muli v32 c128_i32
  let v34 : BitVec 32 := v33
  let v54 : Index := Scalar.indexCast v34
  let c0_37 : Index := 0#32
  ![0, v54.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  h_S128x256 : 0 < S128x256.numel
  reduces_S128x2048_S128 : S128x2048.Reduces [1] S128
  shapeCasts_S128_S128x1 : S128.ShapeCasts S128x1
  broadcasts_S128x1_S128x2048 : S128x1.Broadcasts S128x2048
  h_S128x2048 : 0 < S128x2048.numel
  shapeCasts_S128x2048_S128x2048 : S128x2048.ShapeCasts S128x2048
  h_S1x128x256 : 0 < S1x128x256.numel
  shapeCasts_S1x128x256_S128x256 : S1x128x256.ShapeCasts S128x256
  shapeCasts_S128x256_S1x128x256 : S128x256.ShapeCasts S1x128x256
  inb_S2048x2048_S2048x2048_0_0 : ∀ a, (![0, 0] : Fin 2 → Nat) a + S2048x2048.size a ≤ S2048x2048.size a
  h_S2048x2048 : 0 < S2048x2048.numel
  shapeCasts_S2048x256_S1x2048x256 : S2048x256.ShapeCasts S1x2048x256
  dot_S2048x256_S256x256_S2048x256_1_1_0_0_n_n_wf : DotDims.WF S2048x256 S256x256 S2048x256 [1] [1] [0] [0] [] []
  dot_S128x256_S2048x256_S128x2048_1_1_0_0_n_n_wf : DotDims.WF S128x256 S2048x256 S128x2048 [1] [1] [0] [0] [] []
  dot_S128x2048_S2048x256_S128x256_1_0_0_1_n_n_wf : DotDims.WF S128x2048 S2048x256 S128x256 [1] [0] [0] [1] [] []
  dot_S2048x2048_S2048x256_S2048x256_0_0_1_1_n_n_wf : DotDims.WF S2048x2048 S2048x256 S2048x256 [0] [0] [1] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x256.size a ≤ S2048x256.size a
  k0_off2_inb : ∀ k0_t1 : Fin k0_t1_loop.trips, ∀ a, (k0_off2 k0_t1) a + S128x2048.size a ≤ S2048x2048.size a
  k0_off2_packedbf16 : ∀ k0_t1 : Fin k0_t1_loop.trips, (Rect.unit (s := S2048x2048) (k0_off2 k0_t1) S128x2048.size (k0_off2_inb k0_t1)).PackedRows (EltTy.packing .bf16)
  k0_off3_inb : ∀ k0_t1 : Fin k0_t1_loop.trips, ∀ a, (k0_off3 k0_t1) a + S1x128x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x256.size a
  hwx0_4 : ∀ i : grid0.Coords, EltTy.bits .f32 = 32 ∨ (Rect.block (s := S8x2048x256) S1x2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x2048x256.size a
  hwx0_5 : ∀ i : grid0.Coords, EltTy.bits .f32 = 32 ∨ (Rect.block (s := S8x2048x256) S1x2048x256.size (cc0_transform_5 i) (hinb0_5 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S2048x2048_S2048x256_S2048x256_0_0_1_1_n_n : DotDims S2048x2048 S2048x256 S2048x256 where
  lhsContracting := [0]
  rhsContracting := [0]
  lhsNonContracting := [1]
  rhsNonContracting := [1]
  lhsBatch := []
  rhsBatch := []
  wf := dot_S2048x2048_S2048x256_S2048x256_0_0_1_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x256, .f32⟩
  | .hbm, ⟨3, _⟩ => ⟨S256, .f32⟩
  | .hbm, ⟨4, _⟩ => ⟨S8x2048x256, .f32⟩
  | .hbm, ⟨5, _⟩ => ⟨S1x1x256, .f32⟩
  | .hbm, ⟨6, _⟩ => ⟨S8x2048x256, .f32⟩
  | .hbm, ⟨7, _⟩ => ⟨S8x2048x256, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x256, .f32⟩
  | .hbm, ⟨24, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]
  dot_S8x2048x2048_S8x2048x256_S8x2048x256_1_1_2_2_0_0_wf : DotDims.WF S8x2048x2048 S8x2048x256 S8x2048x256 [1] [1] [2] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x2048_S8x2048x256_S8x2048x256_1_1_2_2_0_0 : DotDims S8x2048x2048 S8x2048x256 S8x2048x256 where
  lhsContracting := [1]
  rhsContracting := [1]
  lhsNonContracting := [2]
  rhsNonContracting := [2]
  lhsBatch := [0]
  rhsBatch := [0]
  wf := dot_S8x2048x2048_S8x2048x256_S8x2048x256_1_1_2_2_0_0_wf

class Facts : Prop extends Facts₀ where

variable [Facts]
-- ==== Proof.Attention.lean ====
/-
  The function both programs compute, written once over the extended reals, entry by entry.

  For a batch `b`, a query row `n`, a key row `m` and a feature `d`:
    query  b n e = (∑ d, x1[b,n,d] · W[e,d]) + bias[e]
    score  b n m = ∑ d, query b n d · x2[b,m,d]
    rowMax b n   = the maximum over m of score b n m, started from −∞
    expo   b n m = exp (score b n m − rowMax b n)
    rowSum b n   = ∑ m, expo b n m
    prob   b n m = expo b n m / rowSum b n            (a row of the softmax)
    upd1   b n d = ∑ m, prob b n m · x2[b,m,d]         (the first result)
    upd2   b m d = ∑ n, prob b n m · x1[b,n,d]         (the second result: the transposed product)
  No finiteness is used anywhere: the two programs apply the same operations to the same sums, so they agree on
  every extended real.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- A batch of 8 matrices of 2048 rows and 256 features. -/
abbrev Batch : Type := (⟨3, ![8, 2048, 256]⟩ : Shape).Idx → EReal
/-- The 256 × 256 weight matrix. -/
abbrev Weight : Type := (⟨2, ![256, 256]⟩ : Shape).Idx → EReal
/-- The bias vector. -/
abbrev Bias : Type := (⟨1, ![256]⟩ : Shape).Idx → EReal

/-- The value of the pattern the maxima start from: −∞. -/
def negInf : EReal := Ideal.ofBits .f32 0xFF800000#32

/-- −∞ is neutral for the maximum. -/
theorem max_negInf (y : EReal) : max negInf y = y := by
  unfold negInf; simp [Ideal.ofBits, Ideal.ieee]

/-- The softmax of one row of 2048 scores, at key `m`: the exponential of the score below the row's maximum, over the
    sum of the row's such exponentials. -/
def softRow (s : Fin 2048 → EReal) (m : Fin 2048) : EReal :=
  Ideal.div (Ideal.exp (s m - (Finset.univ : Finset (Fin 2048)).fold max negInf s))
    (∑ m' : Fin 2048, Ideal.exp (s m' - (Finset.univ : Finset (Fin 2048)).fold max negInf s))

variable (x1 x2 : Batch) (w : Weight) (bias : Bias)

/-- The projected query: row `n` of `x1[b]` against row `e` of the weight, plus the bias. -/
def query (b : Fin 8) (n : Fin 2048) (e : Fin 256) : EReal :=
  (∑ d : Fin 256, x1 (ix3 b n d) * w (ix2 e d)) + bias (ix1 e)

/-- The score of query row `n` against key row `m`. -/
def score (b : Fin 8) (n m : Fin 2048) : EReal :=
  ∑ d : Fin 256, query x1 w bias b n d * x2 (ix3 b m d)

/-- The largest score of query row `n`. -/
def rowMax (b : Fin 8) (n : Fin 2048) : EReal :=
  (Finset.univ : Finset (Fin 2048)).fold max negInf (fun m => score x1 x2 w bias b n m)

/-- The exponential of a score below its row's maximum. -/
def expo (b : Fin 8) (n m : Fin 2048) : EReal :=
  Ideal.exp (score x1 x2 w bias b n m - rowMax x1 x2 w bias b n)

/-- The sum of a row's exponentials. -/
def rowSum (b : Fin 8) (n : Fin 2048) : EReal :=
  ∑ m : Fin 2048, expo x1 x2 w bias b n m

/-- The softmax of the scores along the keys. -/
def prob (b : Fin 8) (n m : Fin 2048) : EReal :=
  Ideal.div (expo x1 x2 w bias b n m) (rowSum x1 x2 w bias b n)

/-- A row of probabilities is the row softmax of that row's scores. -/
theorem prob_eq_softRow (b : Fin 8) (n m : Fin 2048) :
    prob x1 x2 w bias b n m = softRow (fun m' => score x1 x2 w bias b n m') m := rfl

/-- The first result: the probabilities applied to the keys' rows. -/
def upd1 (b : Fin 8) (n : Fin 2048) (d : Fin 256) : EReal :=
  ∑ m : Fin 2048, prob x1 x2 w bias b n m * x2 (ix3 b m d)

/-- The second result: the transposed probabilities applied to the queries' rows. -/
def upd2 (b : Fin 8) (m : Fin 2048) (d : Fin 256) : EReal :=
  ∑ n : Fin 2048, prob x1 x2 w bias b n m * x1 (ix3 b n d)

/-- The first result depends on its coordinates' values only. -/
theorem upd1_congr {b b' : Fin 8} {n n' : Fin 2048} {d d' : Fin 256} (hb : b.val = b'.val) (hn : n.val = n'.val)
    (hd : d.val = d'.val) : upd1 x1 x2 w bias b n d = upd1 x1 x2 w bias b' n' d' := by
  obtain rfl := Fin.ext hb
  obtain rfl := Fin.ext hn
  obtain rfl := Fin.ext hd
  rfl

/-- The second result depends on its coordinates' values only. -/
theorem upd2_congr {b b' : Fin 8} {m m' : Fin 2048} {d d' : Fin 256} (hb : b.val = b'.val) (hm : m.val = m'.val)
    (hd : d.val = d'.val) : upd2 x1 x2 w bias b m d = upd2 x1 x2 w bias b' m' d' := by
  obtain rfl := Fin.ext hb
  obtain rfl := Fin.ext hm
  obtain rfl := Fin.ext hd
  rfl

/-- The first result as an array. -/
def out1 : Batch := fun i => upd1 x1 x2 w bias (i 0) (i 1) (i 2)
/-- The second result as an array. -/
def out2 : Batch := fun i => upd2 x1 x2 w bias (i 0) (i 1) (i 2)

/-! ## One batch entry at a time

The same functions of ONE batch entry's blocks — a [1, 2048, 256] block of each input, the bias as a row [1, 256] — which is
what one grid point of the kernel sees. Where the blocks are batch entry `b`'s slices of the arrays, they are the functions
above at `b`. -/

/-- One batch entry's block of an input. -/
abbrev Block : Type := (⟨3, ![1, 2048, 256]⟩ : Shape).Idx → EReal
/-- The bias as a row. -/
abbrev BiasRow : Type := (⟨2, ![1, 256]⟩ : Shape).Idx → EReal

section Blocks

variable (y1 y2 : Block) (brow : BiasRow)

/-- The projected query of a block. -/
def bquery (n : Fin 2048) (e : Fin 256) : EReal :=
  (∑ k : Fin 256, y1 (ix3 (0 : Fin 1) n k) * w (ix2 e k)) + brow (ix2 (0 : Fin 1) e)

/-- The scores of a block's queries against the other block's keys. -/
def bscore (n m : Fin 2048) : EReal :=
  ∑ k : Fin 256, bquery w y1 brow n k * y2 (ix3 (0 : Fin 1) m k)

/-- The probabilities: each score row's softmax. -/
def bprob (n m : Fin 2048) : EReal :=
  softRow (fun m' => bscore w y1 y2 brow n m') m

/-- The first result's block. -/
def bupd1 (n : Fin 2048) (d : Fin 256) : EReal :=
  ∑ m : Fin 2048, bprob w y1 y2 brow n m * y2 (ix3 (0 : Fin 1) m d)

/-- The second result's block. -/
def bupd2 (m : Fin 2048) (d : Fin 256) : EReal :=
  ∑ n : Fin 2048, bprob w y1 y2 brow n m * y1 (ix3 (0 : Fin 1) n d)

variable (b : Fin 8)
  (h1 : ∀ (n : Fin 2048) (k : Fin 256), y1 (ix3 (0 : Fin 1) n k) = x1 (ix3 b n k))
  (h2 : ∀ (n : Fin 2048) (k : Fin 256), y2 (ix3 (0 : Fin 1) n k) = x2 (ix3 b n k))
  (h3 : ∀ e : Fin 256, brow (ix2 (0 : Fin 1) e) = bias (ix1 e))

include h1 h3 in
theorem bquery_eq (n : Fin 2048) (e : Fin 256) : bquery w y1 brow n e = query x1 w bias b n e := by
  unfold bquery query
  simp only [h1, h3]

include h1 h2 h3 in
theorem bscore_eq (n m : Fin 2048) : bscore w y1 y2 brow n m = score x1 x2 w bias b n m := by
  unfold bscore score
  simp only [bquery_eq x1 w bias y1 brow b h1 h3, h2]

include h1 h2 h3 in
theorem bprob_eq (n m : Fin 2048) : bprob w y1 y2 brow n m = prob x1 x2 w bias b n m := by
  rw [prob_eq_softRow]
  unfold bprob
  simp only [bscore_eq x1 x2 w bias y1 y2 brow b h1 h2 h3]

include h1 h2 h3 in
theorem bupd1_eq (n : Fin 2048) (d : Fin 256) : bupd1 w y1 y2 brow n d = upd1 x1 x2 w bias b n d := by
  unfold bupd1 upd1
  simp only [bprob_eq x1 x2 w bias y1 y2 brow b h1 h2 h3, h2]

include h1 h2 h3 in
theorem bupd2_eq (m : Fin 2048) (d : Fin 256) : bupd2 w y1 y2 brow m d = upd2 x1 x2 w bias b m d := by
  unfold bupd2 upd2
  simp only [bprob_eq x1 x2 w bias y1 y2 brow b h1 h2 h3, h1]

end Blocks

end Cert.Attention

end
-- ==== Proof.Ref.lean ====
/-
  The reference's two results, read entry by entry, are the specification's `upd1` and `upd2`.

  Each stage of the reference is read at an index written by coordinates: the projection's sum over the 256
  features plus the bias, the scores' sum, the row maximum as a fold of `max` from −∞ (taken once more against −∞,
  which changes nothing), the exponentials, their sum started from zero, the quotient, and the two products — the
  first summing over the key rows, the second over the query rows.
-/
import proofs.«155401_j50337016709459_2_alg».proof.Proof.Gen.ReferenceIdeal.Read
import proofs.«155401_j50337016709459_2_alg».proof.Proof.Attention

noncomputable section

open scoped BigOperators

namespace Cert.RefAttention

open Cert.ReferenceIdeal Cert.ReferenceIdeal.Gen Cert.ReferenceIdeal.Read Idealize.ShloMosaic Idealize.ShloMosaic.ValueIdx
open Cert.Attention

variable (x1 x2 : Batch) (w : Weight) (bias : Bias)

/-- The projection with its bias, at (b, n, e). -/
theorem stage_query (b : Fin 8) (n : Fin 2048) (e : Fin 256) :
    val_main_v3 (F := Ideal) x1 w bias (ix3 b n e) = query x1 w bias b n e := by
  rw [val_main_v3_apply, val_main_v0_apply, val_main_v2_apply, val_main_v1_apply]
  unfold query
  have e3 : idx_main_v1 (idx_main_v2 (ix3 b n e)) = ix1 e := funext fun a => match a with | ⟨0, _⟩ => rfl
  rw [e3]
  show (∑ k : Fin 256, _) + _ = _
  refine congrArg (· + bias (ix1 e)) (Finset.sum_congr rfl fun d _ => ?_)
  have e1 : lidx_main_v0 (ix3 b n e) d = ix3 b n d :=
    funext fun a => match a with | ⟨0, _⟩ => rfl | ⟨1, _⟩ => rfl | ⟨2, _⟩ => rfl
  have e2 : ridx_main_v0 (ix3 b n e) d = ix2 e d :=
    funext fun a => match a with | ⟨0, _⟩ => rfl | ⟨1, _⟩ => rfl
  rw [e1, e2]

/-- The scores, at (b, n, m). -/
theorem stage_score (b : Fin 8) (n m : Fin 2048) :
    val_main_v4 (F := Ideal) x1 x2 w bias (ix3 b n m) = score x1 x2 w bias b n m := by
  rw [val_main_v4_apply]
  unfold score
  refine Finset.sum_congr rfl fun d _ => ?_
  have e1 : lidx_main_v4 (ix3 b n m) d = ix3 b n d :=
    funext fun a => match a with | ⟨0, _⟩ => rfl | ⟨1, _⟩ => rfl | ⟨2, _⟩ => rfl
  have e2 : ridx_main_v4 (ix3 b n m) d = ix3 b m d :=
    funext fun a => match a with | ⟨0, _⟩ => rfl | ⟨1, _⟩ => rfl | ⟨2, _⟩ => rfl
  rw [e1, e2, stage_query]

/-- Row (b, n) of the scores with key `k` put back is (b, n, k). -/
theorem lift_row (h : S8x2048x2048.Reduces [2] S8x2048) (b : Fin 8) (n : Fin 2048) (k : Fin (S8x2048x2048.size 2)) :
    h.lift (ix2 b n) k = ix3 b n (⟨k.val, k.isLt⟩ : Fin 2048) := by
  funext c; apply Fin.ext
  fin_cases c <;> rfl

/-- The row maximum, at (b, n): the host's reduce is the fold of `max` from −∞ over the keys. -/
theorem stage_rowMax (b : Fin 8) (n : Fin 2048) :
    val_main_v7 (F := Ideal) x1 x2 w bias (ix2 b n) = rowMax x1 x2 w bias b n := by
  rw [val_main_v7_apply, val_main_v6_apply, val_main_cst_0_apply]
  unfold val_main_v5
  rw [Host.reduce_eq_fold_single FloatOps.maximumf _ _ reducesTo_S8x2048x2048_S8x2048_d2 (by decide) h_S_]
  show max negInf ((Finset.univ : Finset (Fin 2048)).fold max negInf _) = _
  rw [max_negInf]
  unfold rowMax
  refine congrArg (fun f => Finset.fold max negInf f (Finset.univ : Finset (Fin 2048))) ?_
  funext k
  show val_main_v4 (F := Ideal) x1 x2 w bias (Shape.Reduces.lift _ (ix2 b n) k) = _
  rw [lift_row, stage_score]
  rfl

/-- The exponentials, at (b, n, m). -/
theorem stage_expo (b : Fin 8) (n m : Fin 2048) :
    val_main_v11 (F := Ideal) x1 x2 w bias (ix3 b n m) = expo x1 x2 w bias b n m := by
  rw [val_main_v11_apply, val_main_v10_apply, val_main_v9_apply, val_main_v8_apply, stage_score]
  have e1 : idx_main_v8 (idx_main_v9 (ix3 b n m)) = ix2 b n :=
    funext fun a => match a with | ⟨0, _⟩ => rfl | ⟨1, _⟩ => rfl
  rw [e1, stage_rowMax]
  rfl

/-- The row sums, at (b, n): started from zero. -/
theorem stage_rowSum (b : Fin 8) (n : Fin 2048) :
    val_main_v12 (F := Ideal) x1 x2 w bias (ix2 b n) = rowSum x1 x2 w bias b n := by
  rw [val_main_v12_apply, val_main_cst_1_apply]
  unfold rowSum
  rw [Ideal.ofBits_def, Ideal.ofBits_zero_f32, zero_add]
  refine Finset.sum_congr rfl fun m _ => ?_
  have e1 : idx_main_v12 (ix2 b n) m = ix3 b n m :=
    funext fun a => match a with | ⟨0, _⟩ => rfl | ⟨1, _⟩ => rfl | ⟨2, _⟩ => rfl
  rw [e1, stage_expo]

/-- The probabilities, at (b, n, m). -/
theorem stage_prob (b : Fin 8) (n m : Fin 2048) :
    val_main_v15 (F := Ideal) x1 x2 w bias (ix3 b n m) = prob x1 x2 w bias b n m := by
  rw [val_main_v15_apply, val_main_v14_apply, val_main_v13_apply, stage_expo]
  have e1 : idx_main_v13 (idx_main_v14 (ix3 b n m)) = ix2 b n :=
    funext fun a => match a with | ⟨0, _⟩ => rfl | ⟨1, _⟩ => rfl
  rw [e1, stage_rowSum]
  rfl

/-- The first result, at (b, n, d). -/
theorem stage_upd1 (b : Fin 8) (n : Fin 2048) (d : Fin 256) :
    val_main_v16 (F := Ideal) x1 x2 w bias (ix3 b n d) = upd1 x1 x2 w bias b n d := by
  rw [val_main_v16_apply]
  unfold upd1
  refine Finset.sum_congr rfl fun m _ => ?_
  have e1 : lidx_main_v16 (ix3 b n d) m = ix3 b n m :=
    funext fun a => match a with | ⟨0, _⟩ => rfl | ⟨1, _⟩ => rfl | ⟨2, _⟩ => rfl
  have e2 : ridx_main_v16 (ix3 b n d) m = ix3 b m d :=
    funext fun a => match a with | ⟨0, _⟩ => rfl | ⟨1, _⟩ => rfl | ⟨2, _⟩ => rfl
  rw [e1, e2, stage_prob]

/-- The second result, at (b, m, d). -/
theorem stage_upd2 (b : Fin 8) (m : Fin 2048) (d : Fin 256) :
    val_main_v17 (F := Ideal) x1 x2 w bias (ix3 b m d) = upd2 x1 x2 w bias b m d := by
  rw [val_main_v17_apply]
  unfold upd2
  refine Finset.sum_congr rfl fun n _ => ?_
  have e1 : lidx_main_v17 (ix3 b m d) n = ix3 b n m :=
    funext fun a => match a with | ⟨0, _⟩ => rfl | ⟨1, _⟩ => rfl | ⟨2, _⟩ => rfl
  have e2 : ridx_main_v17 (ix3 b m d) n = ix3 b n d :=
    funext fun a => match a with | ⟨0, _⟩ => rfl | ⟨1, _⟩ => rfl | ⟨2, _⟩ => rfl
  rw [e1, e2, stage_prob]

/-- The reference's first result is the specification's. -/
theorem result1 : val_main_v16 (F := Ideal) x1 x2 w bias = out1 x1 x2 w bias := by
  funext i
  obtain ⟨b, n, d, rfl⟩ : ∃ (b : Fin 8) (n : Fin 2048) (d : Fin 256), i = ix3 b n d := ⟨i 0, i 1, i 2, eq_ix3 i⟩
  exact stage_upd1 x1 x2 w bias b n d

/-- The reference's second result is the specification's. -/
theorem result2 : val_main_v17 (F := Ideal) x1 x2 w bias = out2 x1 x2 w bias := by
  funext i
  obtain ⟨b, m, d, rfl⟩ : ∃ (b : Fin 8) (m : Fin 2048) (d : Fin 256), i = ix3 b m d := ⟨i 0, i 1, i 2, eq_ix3 i⟩
  exact stage_upd2 x1 x2 w bias b m d

end Cert.RefAttention

end
-- ==== Proof.Pieces.lean ====
/-
  What the body's run leaves, piece by piece.

  Before the loop the body fills three scratch buffers whole: a copy of the first input's block, the projected
  queries, a copy of the second input's block. Trip `k` of the loop then reads the tile of 128 query rows at offset
  128·k and all the key rows, and makes two stores: the tile's probabilities into rows 128·k … of the probabilities'
  scratch, and the tile of the first result into rows 128·k … of the first output's block. After the loop one store
  fills the second output's block from the whole probabilities' scratch and the copy of the first input's block.
  So the first output's pieces are the sixteen trips' pieces, and every piece of the loop's lists is some trip's.
-/
import proofs.«155401_j50337016709459_2_alg».proof.Proof.IdealFrame.Frame

set_option maxRecDepth 16384

noncomputable section

namespace Cert.KernelPieces

open Cert.KernelIdeal Cert.KernelIdeal.Gen Cert.KernelIdeal.GenP Idealize.ShloMosaic Idealize.ShloMosaic.TcCoe
open Idealize.SL.Sem

variable {F : FTy → Type} [FloatOps F]

/-- The first input's block as loaded from its whole staging buffer. -/
abbrev load3 (a : Memref sig .tc .vmem S1x2048x256 .f32) (ha : a.IsWhole) (x : Vec F S1x2048x256 .f32) :
    (Rect.unit (s := S1x2048x256) ![0, 0, 0] S1x2048x256.size inb_S1x2048x256_S1x2048x256_0_0_0).shape.Idx → Elt F .f32 :=
  View.readAt (Elt F) a.view (Rect.unit (s := S1x2048x256) ![0, 0, 0] S1x2048x256.size inb_S1x2048x256_S1x2048x256_0_0_0).toLoadRect (ha.unread x)

/-- The one piece that fills the copy of the first input's block. -/
abbrev copyPieces (arg1 : Memref sig .tc .vmem S1x2048x256 .f32) (harg1 : arg1.IsWhole) (x0 : Vec F S1x2048x256 .f32) :
    List (View.Piece (Elt F) S2048x256 .bf16) :=
  [⟨Rect.unit (s := S2048x256) ![0, 0] S2048x256.size inb_S2048x256_S2048x256_0_0, k0_pay2 (load3 arg1 harg1 x0)⟩]

/-- The copy of the first input's block, as read back from its scratch. -/
abbrev copyRead (arg1 : Memref sig .tc .vmem S1x2048x256 .f32) (harg1 : arg1.IsWhole)
    (arg9 : Memref sig .tc .vmem S2048x256 .bf16) (x0 : Vec F S1x2048x256 .f32) :=
  arg9.view.readCov (copyPieces arg1 harg1 x0) (Rect.unit (s := S2048x256) ![0, 0] S2048x256.size inb_S2048x256_S2048x256_0_0).toLoadRect

/-- The queries' scratch when the loop starts. -/
abbrev queriesAt (arg1 : Memref sig .tc .vmem S1x2048x256 .f32) (harg1 : arg1.IsWhole)
    (arg3 : Memref sig .tc .vmem S256x256 .f32) (harg3 : arg3.IsWhole) (arg4 : Memref sig .tc .vmem S1x256 .f32) (harg4 : arg4.IsWhole)
    (arg7 arg9 : Memref sig .tc .vmem S2048x256 .bf16)
    (x0 : Vec F S1x2048x256 .f32) (x2 : Vec F S256x256 .f32) (x3 : Vec F S1x256 .f32) : BufTy.Contents (Elt F) arg7.view.ty :=
  arg7.view.writes (Elt F) arg7.view.junk
    [⟨Rect.unit (s := S2048x256) ![0, 0] S2048x256.size inb_S2048x256_S2048x256_0_0,
      k0_pay3
        (View.readAt (Elt F) arg3.view (Rect.unit (s := S256x256) ![0, 0] S256x256.size inb_S256x256_S256x256_0_0).toLoadRect (harg3.unread x2))
        (copyRead arg1 harg1 arg9 x0)
        (View.readAt (Elt F) arg4.view (Rect.unit (s := S1x256) ![0, 0] S1x256.size inb_S1x256_S1x256_0_0).toLoadRect (harg4.unread x3))⟩]

/-- The keys' scratch when the loop starts. -/
abbrev keysAt (arg2 : Memref sig .tc .vmem S1x2048x256 .f32) (harg2 : arg2.IsWhole) (arg8 : Memref sig .tc .vmem S2048x256 .bf16)
    (x1 : Vec F S1x2048x256 .f32) : BufTy.Contents (Elt F) arg8.view.ty :=
  arg8.view.writes (Elt F) arg8.view.junk
    [⟨Rect.unit (s := S2048x256) ![0, 0] S2048x256.size inb_S2048x256_S2048x256_0_0, k0_pay4 (load3 arg2 harg2 x1)⟩]

/-- The tile of queries trip `k` loads. -/
abbrev tileQ (arg7 : Memref sig .tc .vmem S2048x256 .bf16) (X7 : BufTy.Contents (Elt F) arg7.view.ty) (k : Fin k0_t1_loop.trips) :=
  View.readAt (Elt F) arg7.view (Rect.unit (s := S2048x256) (k0_off1 k) S128x256.size (k0_off1_inb k)).toLoadRect X7

/-- The keys every trip loads. -/
abbrev allK (arg8 : Memref sig .tc .vmem S2048x256 .bf16) (X8 : BufTy.Contents (Elt F) arg8.view.ty) :=
  View.readAt (Elt F) arg8.view (Rect.unit (s := S2048x256) ![0, 0] S2048x256.size inb_S2048x256_S2048x256_0_0).toLoadRect X8

section
variable (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x2048 .bf16) (harg10 : arg10.IsWhole)
  (X7 : BufTy.Contents (Elt F) arg7.view.ty) (X8 : BufTy.Contents (Elt F) arg8.view.ty)

/-- Trip `k`'s one piece of the first output: the tile of the first result at rows 128·k …. -/
theorem trip_out (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 X7 X8 k).1
      = [⟨Rect.unit (s := S1x2048x256) (k0_off3 k) S1x128x256.size (k0_off3_inb k), k0_pay7 (tileQ arg7 X7 k) (allK arg8 X8)⟩] := by
  unfold trip_k0_t1
  rfl

/-- Trip `k`'s one piece of the probabilities' scratch: the tile's probabilities at rows 128·k …. -/
theorem trip_scratch (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 X7 X8 k).2.1
      = [⟨Rect.unit (s := S2048x2048) (k0_off2 k) S128x2048.size (k0_off2_inb k), k0_pay6 (tileQ arg7 X7 k) (allK arg8 X8)⟩] := by
  unfold trip_k0_t1
  rfl

/-- Every piece the trips before `n` left is some trip's piece. -/
theorem mem_pb : ∀ n : ℕ, n ≤ k0_t1_loop.trips →
    (∀ p ∈ (pb_k0_t1 (F := F) 𝒱 c bd i arg1 harg1 arg2 harg2 arg3 harg3 arg4 harg4 arg5 harg5 arg6 harg6 arg7 harg7 arg8 harg8 arg9 harg9 arg10 harg10 X7 X8 n).1,
        ∃ k : Fin k0_t1_loop.trips, p ∈ (trip_k0_t1 (F := F) 𝒱 c bd i arg1 harg1 arg2 harg2 arg3 harg3 arg4 harg4 arg5 harg5 arg6 harg6 arg7 harg7 arg8 harg8 arg9 harg9 arg10 harg10 X7 X8 k).1)
    ∧ (∀ p ∈ (pb_k0_t1 (F := F) 𝒱 c bd i arg1 harg1 arg2 harg2 arg3 harg3 arg4 harg4 arg5 harg5 arg6 harg6 arg7 harg7 arg8 harg8 arg9 harg9 arg10 harg10 X7 X8 n).2,
        ∃ k : Fin k0_t1_loop.trips, p ∈ (trip_k0_t1 (F := F) 𝒱 c bd i arg1 harg1 arg2 harg2 arg3 harg3 arg4 harg4 arg5 harg5 arg6 harg6 arg7 harg7 arg8 harg8 arg9 harg9 arg10 harg10 X7 X8 k).2.1)
  | 0, _ => ⟨fun p hp => absurd hp List.not_mem_nil, fun p hp => absurd hp List.not_mem_nil⟩
  | n + 1, hn => by
    have hlt : n < k0_t1_loop.trips := hn
    have ih := mem_pb n (Nat.le_of_lt hlt)
    have e := pb_k0_t1_succ (F := F) 𝒱 c bd i arg1 harg1 arg2 harg2 arg3 harg3 arg4 harg4 arg5 harg5 arg6 harg6 arg7 harg7 arg8 harg8 arg9 harg9 arg10 harg10 X7 X8 ⟨n, hlt⟩
    constructor
    · intro p hp
      have hp' : p ∈ (trip_k0_t1 (F := F) 𝒱 c bd i arg1 harg1 arg2 harg2 arg3 harg3 arg4 harg4 arg5 harg5 arg6 harg6 arg7 harg7 arg8 harg8 arg9 harg9 arg10 harg10 X7 X8 ⟨n, hlt⟩).1 ++ (pb_k0_t1 (F := F) 𝒱 c bd i arg1 harg1 arg2 harg2 arg3 harg3 arg4 harg4 arg5 harg5 arg6 harg6 arg7 harg7 arg8 harg8 arg9 harg9 arg10 harg10 X7 X8 n).1 := by
        exact (congrArg (fun L => p ∈ L) (congrArg Prod.fst e)).mp hp
      rcases List.mem_append.mp hp' with h | h
      · exact ⟨⟨n, hlt⟩, h⟩
      · exact ih.1 p h
    · intro p hp
      have hp' : p ∈ (trip_k0_t1 (F := F) 𝒱 c bd i arg1 harg1 arg2 harg2 arg3 harg3 arg4 harg4 arg5 harg5 arg6 harg6 arg7 harg7 arg8 harg8 arg9 harg9 arg10 harg10 X7 X8 ⟨n, hlt⟩).2.1 ++ (pb_k0_t1 (F := F) 𝒱 c bd i arg1 harg1 arg2 harg2 arg3 harg3 arg4 harg4 arg5 harg5 arg6 harg6 arg7 harg7 arg8 harg8 arg9 harg9 arg10 harg10 X7 X8 n).2 := by
        exact (congrArg (fun L => p ∈ L) (congrArg Prod.snd e)).mp hp
      rcases List.mem_append.mp hp' with h | h
      · exact ⟨⟨n, hlt⟩, h⟩
      · exact ih.2 p h

end

section
variable (c : Dev nD) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x2048 .bf16) (harg10 : arg10.IsWhole)
  (x0 x1 : Vec F S1x2048x256 .f32) (x2 : Vec F S256x256 .f32) (x3 : Vec F S1x256 .f32)

/-- The first output's pieces are the loop's. -/
theorem run_out :
    (kernelRun0_A (F := F) c i arg1 harg1 arg2 harg2 arg3 harg3 arg4 harg4 arg5 harg5 arg6 harg6 arg7 harg7 arg8 harg8 arg9 harg9 arg10 harg10 x0 x1 x2 x3).1
      = (pb_k0_t1 (F := F) Variants.none c none i arg1 harg1 arg2 harg2 arg3 harg3 arg4 harg4 arg5 harg5 arg6 harg6 arg7 harg7 arg8 harg8 arg9 harg9 arg10 harg10
          (queriesAt arg1 harg1 arg3 harg3 arg4 harg4 arg7 arg9 x0 x2 x3) (keysAt arg2 harg2 arg8 x1) k0_t1_loop.trips).1 := by
  unfold kernelRun0_A
  rfl

/-- The second output's one piece: the transposed product of the whole probabilities' scratch, as the loop left it, with
    the copy of the first input's block. -/
theorem run_last :
    (kernelRun0_A (F := F) c i arg1 harg1 arg2 harg2 arg3 harg3 arg4 harg4 arg5 harg5 arg6 harg6 arg7 harg7 arg8 harg8 arg9 harg9 arg10 harg10 x0 x1 x2 x3).2.1
      = [⟨Rect.unit (s := S1x2048x256) ![0, 0, 0] S1x2048x256.size inb_S1x2048x256_S1x2048x256_0_0_0,
          k0_pay1
            (arg10.view.readCov
              (pb_k0_t1 (F := F) Variants.none c none i arg1 harg1 arg2 harg2 arg3 harg3 arg4 harg4 arg5 harg5 arg6 harg6 arg7 harg7 arg8 harg8 arg9 harg9 arg10 harg10
                (queriesAt arg1 harg1 arg3 harg3 arg4 harg4 arg7 arg9 x0 x2 x3) (keysAt arg2 harg2 arg8 x1) k0_t1_loop.trips).2
              (Rect.unit (s := S2048x2048) ![0, 0] S2048x2048.size inb_S2048x2048_S2048x2048_0_0).toLoadRect)
            (copyRead arg1 harg1 arg9 x0)
            (constant S2048x256 .f32 0x00000000#32)⟩] := by
  unfold kernelRun0_A
  rfl

end

end Cert.KernelPieces

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payloads.lean ====
/-
  The kernel body's arithmetic, read entry by entry over the extended reals.

  The body computes, from the block of `x1`, the block of `x2`, the weight and the bias row:
    * the two blocks unchanged (their casts to a narrower format are the identity here);
    * the projected queries: row `n` against row `e` of the weight, summed over the 256 features, plus the bias;
    * per tile of 128 query rows: the scores against every key row, the row softmax of each score row, and the
      probabilities applied to the key rows (summed over the 2048 keys);
    * at the end, the transposed probabilities applied to the query rows (summed over the 2048 queries).
  Each matrix product into a zero accumulator is the plain sum over its one contracted axis.
-/
import proofs.«155401_j50337016709459_2_alg».proof.Proof.Gen.KernelIdeal.Skeleton
import proofs.«155401_j50337016709459_2_alg».proof.Proof.LibKeepdims
import proofs.«155401_j50337016709459_2_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelAttention

open Cert.KernelIdeal Cert.KernelIdeal.Gen Idealize.ShloMosaic Idealize.ShloMosaic.ValueIdx
open Cert.Attention

/-! ## The four matrix products, each into a zero accumulator -/

/-- Where each operand of the four products is read: the coordinate that is kept comes from the output index, the
    contracted one from the summation index. -/
theorem proj_l0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem proj_l1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem proj_r0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem proj_r1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- Rows of the left operand against rows of the right one, over 256 features: the projection. -/
theorem proj_apply (l : FVec Ideal S2048x256 .bf16) (r : FVec Ideal S256x256 .bf16) (p : Fin 2048) (q : Fin 256) :
    matmul dot_S2048x256_S256x256_S2048x256_1_1_0_0_n_n none l r (constant (F := Ideal) S2048x256 .f32 0x00000000#32) (ix2 p q)
      = ∑ k : Fin 256, l (ix2 p k) * r (ix2 q k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 p q) ((contrEquiv1 dot_S2048x256_S256x256_S2048x256_1_1_0_0_n_n 256 rfl rfl).symm k) = ix2 p k := funext fun a => Fin.ext (by
    match a with
    | ⟨0, _⟩ => exact proj_l0 _ _
    | ⟨1, _⟩ => exact (proj_l1 _ _).trans hk)
  have er : dot_S2048x256_S256x256_S2048x256_1_1_0_0_n_n.rhsIdx (ix2 p q) ((contrEquiv1 dot_S2048x256_S256x256_S2048x256_1_1_0_0_n_n 256 rfl rfl).symm k) = ix2 q k := funext fun a => Fin.ext (by
    match a with
    | ⟨0, _⟩ => exact proj_r0 _ _
    | ⟨1, _⟩ => exact (proj_r1 _ _).trans hk)
  rw [el, er]

theorem scores_l0 (i : S128x2048.Idx) (q : dot_S128x256_S2048x256_S128x2048_1_1_0_0_n_n.contr.Idx) :
    (dot_S128x256_S2048x256_S128x2048_1_1_0_0_n_n.lhsIdx i q 0).val = (i 0).val := by
  unfold DotDims.lhsIdx
  rw [dif_neg (show ¬(0 : Fin S128x256.rank) ∈ dot_S128x256_S2048x256_S128x2048_1_1_0_0_n_n.lhsBatch by decide), dif_pos (show (0 : Fin S128x256.rank) ∈ dot_S128x256_S2048x256_S128x2048_1_1_0_0_n_n.lhsNonContracting by decide)]
  rfl
theorem scores_l1 (i : S128x2048.Idx) (q : dot_S128x256_S2048x256_S128x2048_1_1_0_0_n_n.contr.Idx) :
    (dot_S128x256_S2048x256_S128x2048_1_1_0_0_n_n.lhsIdx i q 1).val = (q ⟨0, by decide⟩).val :=
  dot_S128x256_S2048x256_S128x2048_1_1_0_0_n_n.lhsIdx_val_of_single rfl i q
theorem scores_r0 (i : S128x2048.Idx) (q : dot_S128x256_S2048x256_S128x2048_1_1_0_0_n_n.contr.Idx) :
    (dot_S128x256_S2048x256_S128x2048_1_1_0_0_n_n.rhsIdx i q 0).val = (i 1).val := by
  unfold DotDims.rhsIdx
  rw [dif_neg (show ¬(0 : Fin S2048x256.rank) ∈ dot_S128x256_S2048x256_S128x2048_1_1_0_0_n_n.rhsBatch by decide), dif_pos (show (0 : Fin S2048x256.rank) ∈ dot_S128x256_S2048x256_S128x2048_1_1_0_0_n_n.rhsNonContracting by decide)]
  rfl
theorem scores_r1 (i : S128x2048.Idx) (q : dot_S128x256_S2048x256_S128x2048_1_1_0_0_n_n.contr.Idx) :
    (dot_S128x256_S2048x256_S128x2048_1_1_0_0_n_n.rhsIdx i q 1).val = (q ⟨0, by decide⟩).val :=
  dot_S128x256_S2048x256_S128x2048_1_1_0_0_n_n.rhsIdx_val_of_single rfl i q

/-- Rows of a tile of queries against rows of the keys, over 256 features: the scores of the tile. -/
theorem scores_apply (l : FVec Ideal S128x256 .bf16) (r : FVec Ideal S2048x256 .bf16) (p : Fin 128) (q : Fin 2048) :
    matmul dot_S128x256_S2048x256_S128x2048_1_1_0_0_n_n none l r (constant (F := Ideal) S128x2048 .f32 0x00000000#32) (ix2 p q)
      = ∑ k : Fin 256, l (ix2 p k) * r (ix2 q k) := by
  simp only [matmul]
  rw [Ideal.matmul_constant_zero_apply, ← Equiv.sum_comp (contrEquiv1 dot_S128x256_S2048x256_S128x2048_1_1_0_0_n_n 256 rfl rfl).symm]
  refine Finset.sum_congr rfl fun k _ => ?_
  have hk := contrEquiv1_symm_val dot_S128x256_S2048x256_S128x2048_1_1_0_0_n_n 256 rfl rfl k
  have el : dot_S128x256_S2048x256_S128x2048_1_1_0_0_n_n.lhsIdx (ix2 p q) ((contrEquiv1 dot_S128x256_S2048x256_S128x2048_1_1_0_0_n_n 256 rfl rfl).symm k) = ix2 p k := funext fun a => Fin.ext (by
    match a with
    | ⟨0, _⟩ => exact scores_l0 _ _
    | ⟨1, _⟩ => exact (scores_l1 _ _).trans hk)
  have er : dot_S128x256_S2048x256_S128x2048_1_1_0_0_n_n.rhsIdx (ix2 p q) ((contrEquiv1 dot_S128x256_S2048x256_S128x2048_1_1_0_0_n_n 256 rfl rfl).symm k) = ix2 q k := funext fun a => Fin.ext (by
    match a with
    | ⟨0, _⟩ => exact scores_r0 _ _
    | ⟨1, _⟩ => exact (scores_r1 _ _).trans hk)
  rw [el, er]

theorem applyKeys_l0 (i : S128x256.Idx) (q : dot_S128x2048_S2048x256_S128x256_1_0_0_1_n_n.contr.Idx) :
    (dot_S128x2048_S2048x256_S128x256_1_0_0_1_n_n.lhsIdx i q 0).val = (i 0).val := by
  unfold DotDims.lhsIdx
  rw [dif_neg (show ¬(0 : Fin S128x2048.rank) ∈ dot_S128x2048_S2048x256_S128x256_1_0_0_1_n_n.lhsBatch by decide), dif_pos (show (0 : Fin S128x2048.rank) ∈ dot_S128x2048_S2048x256_S128x256_1_0_0_1_n_n.lhsNonContracting by decide)]
  rfl
theorem applyKeys_l1 (i : S128x256.Idx) (q : dot_S128x2048_S2048x256_S128x256_1_0_0_1_n_n.contr.Idx) :
    (dot_S128x2048_S2048x256_S128x256_1_0_0_1_n_n.lhsIdx i q 1).val = (q ⟨0, by decide⟩).val :=
  dot_S128x2048_S2048x256_S128x256_1_0_0_1_n_n.lhsIdx_val_of_single rfl i q
theorem applyKeys_r0 (i : S128x256.Idx) (q : dot_S128x2048_S2048x256_S128x256_1_0_0_1_n_n.contr.Idx) :
    (dot_S128x2048_S2048x256_S128x256_1_0_0_1_n_n.rhsIdx i q 0).val = (q ⟨0, by decide⟩).val :=
  dot_S128x2048_S2048x256_S128x256_1_0_0_1_n_n.rhsIdx_val_of_single rfl i q
theorem applyKeys_r1 (i : S128x256.Idx) (q : dot_S128x2048_S2048x256_S128x256_1_0_0_1_n_n.contr.Idx) :
    (dot_S128x2048_S2048x256_S128x256_1_0_0_1_n_n.rhsIdx i q 1).val = (i 1).val := by
  unfold DotDims.rhsIdx
  rw [dif_neg (show ¬(1 : Fin S2048x256.rank) ∈ dot_S128x2048_S2048x256_S128x256_1_0_0_1_n_n.rhsBatch by decide), dif_pos (show (1 : Fin S2048x256.rank) ∈ dot_S128x2048_S2048x256_S128x256_1_0_0_1_n_n.rhsNonContracting by decide)]
  rfl

/-- Rows of a tile of probabilities against columns of the keys' matrix, over the 2048 keys. -/
theorem applyKeys_apply (l : FVec Ideal S128x2048 .bf16) (r : FVec Ideal S2048x256 .bf16) (p : Fin 128) (q : Fin 256) :
    matmul dot_S128x2048_S2048x256_S128x256_1_0_0_1_n_n none l r (constant (F := Ideal) S128x256 .f32 0x00000000#32) (ix2 p q)
      = ∑ k : Fin 2048, l (ix2 p k) * r (ix2 k q) := by
  simp only [matmul]
  rw [Ideal.matmul_constant_zero_apply, ← Equiv.sum_comp (contrEquiv1 dot_S128x2048_S2048x256_S128x256_1_0_0_1_n_n 2048 rfl rfl).symm]
  refine Finset.sum_congr rfl fun k _ => ?_
  have hk := contrEquiv1_symm_val dot_S128x2048_S2048x256_S128x256_1_0_0_1_n_n 2048 rfl rfl k
  have el : dot_S128x2048_S2048x256_S128x256_1_0_0_1_n_n.lhsIdx (ix2 p q) ((contrEquiv1 dot_S128x2048_S2048x256_S128x256_1_0_0_1_n_n 2048 rfl rfl).symm k) = ix2 p k := funext fun a => Fin.ext (by
    match a with
    | ⟨0, _⟩ => exact applyKeys_l0 _ _
    | ⟨1, _⟩ => exact (applyKeys_l1 _ _).trans hk)
  have er : dot_S128x2048_S2048x256_S128x256_1_0_0_1_n_n.rhsIdx (ix2 p q) ((contrEquiv1 dot_S128x2048_S2048x256_S128x256_1_0_0_1_n_n 2048 rfl rfl).symm k) = ix2 k q := funext fun a => Fin.ext (by
    match a with
    | ⟨0, _⟩ => exact (applyKeys_r0 _ _).trans hk
    | ⟨1, _⟩ => exact applyKeys_r1 _ _)
  rw [el, er]

theorem applyQueries_l0 (i : S2048x256.Idx) (q : dot_S2048x2048_S2048x256_S2048x256_0_0_1_1_n_n.contr.Idx) :
    (dot_S2048x2048_S2048x256_S2048x256_0_0_1_1_n_n.lhsIdx i q 0).val = (q ⟨0, by decide⟩).val :=
  dot_S2048x2048_S2048x256_S2048x256_0_0_1_1_n_n.lhsIdx_val_of_single rfl i q
theorem applyQueries_l1 (i : S2048x256.Idx) (q : dot_S2048x2048_S2048x256_S2048x256_0_0_1_1_n_n.contr.Idx) :
    (dot_S2048x2048_S2048x256_S2048x256_0_0_1_1_n_n.lhsIdx i q 1).val = (i 0).val := by
  unfold DotDims.lhsIdx
  rw [dif_neg (show ¬(1 : Fin S2048x2048.rank) ∈ dot_S2048x2048_S2048x256_S2048x256_0_0_1_1_n_n.lhsBatch by decide), dif_pos (show (1 : Fin S2048x2048.rank) ∈ dot_S2048x2048_S2048x256_S2048x256_0_0_1_1_n_n.lhsNonContracting by decide)]
  rfl
theorem applyQueries_r0 (i : S2048x256.Idx) (q : dot_S2048x2048_S2048x256_S2048x256_0_0_1_1_n_n.contr.Idx) :
    (dot_S2048x2048_S2048x256_S2048x256_0_0_1_1_n_n.rhsIdx i q 0).val = (q ⟨0, by decide⟩).val :=
  dot_S2048x2048_S2048x256_S2048x256_0_0_1_1_n_n.rhsIdx_val_of_single rfl i q
theorem applyQueries_r1 (i : S2048x256.Idx) (q : dot_S2048x2048_S2048x256_S2048x256_0_0_1_1_n_n.contr.Idx) :
    (dot_S2048x2048_S2048x256_S2048x256_0_0_1_1_n_n.rhsIdx i q 1).val = (i 1).val := by
  unfold DotDims.rhsIdx
  rw [dif_neg (show ¬(1 : Fin S2048x256.rank) ∈ dot_S2048x2048_S2048x256_S2048x256_0_0_1_1_n_n.rhsBatch by decide), dif_pos (show (1 : Fin S2048x256.rank) ∈ dot_S2048x2048_S2048x256_S2048x256_0_0_1_1_n_n.rhsNonContracting by decide)]
  rfl

/-- Columns of the probabilities against columns of the queries' matrix, over the 2048 queries: the transposed product. -/
theorem applyQueries_apply (l : FVec Ideal S2048x2048 .bf16) (r : FVec Ideal S2048x256 .bf16) (p : Fin 2048) (q : Fin 256) :
    matmul dot_S2048x2048_S2048x256_S2048x256_0_0_1_1_n_n none l r (constant (F := Ideal) S2048x256 .f32 0x00000000#32) (ix2 p q)
      = ∑ k : Fin 2048, l (ix2 k p) * r (ix2 k q) := by
  simp only [matmul]
  rw [Ideal.matmul_constant_zero_apply, ← Equiv.sum_comp (contrEquiv1 dot_S2048x2048_S2048x256_S2048x256_0_0_1_1_n_n 2048 rfl rfl).symm]
  refine Finset.sum_congr rfl fun k _ => ?_
  have hk := contrEquiv1_symm_val dot_S2048x2048_S2048x256_S2048x256_0_0_1_1_n_n 2048 rfl rfl k
  have el : dot_S2048x2048_S2048x256_S2048x256_0_0_1_1_n_n.lhsIdx (ix2 p q) ((contrEquiv1 dot_S2048x2048_S2048x256_S2048x256_0_0_1_1_n_n 2048 rfl rfl).symm k) = ix2 k p := funext fun a => Fin.ext (by
    match a with
    | ⟨0, _⟩ => exact (applyQueries_l0 _ _).trans hk
    | ⟨1, _⟩ => exact applyQueries_l1 _ _)
  have er : dot_S2048x2048_S2048x256_S2048x256_0_0_1_1_n_n.rhsIdx (ix2 p q) ((contrEquiv1 dot_S2048x2048_S2048x256_S2048x256_0_0_1_1_n_n 2048 rfl rfl).symm k) = ix2 k q := funext fun a => Fin.ext (by
    match a with
    | ⟨0, _⟩ => exact (applyQueries_r0 _ _).trans hk
    | ⟨1, _⟩ => exact applyQueries_r1 _ _)
  rw [el, er]

/-! ## The two reductions along a tile's score rows -/

/-- Row `p` of a [128, 2048] tile with key `k` put back is (p, k). -/
theorem lift_tile (h : S128x2048.Reduces [1] S128) (p : Fin 128) (k : Fin (S128x2048.size 1)) :
    h.lift (ix1 p) k = ix2 p (⟨k.val, k.isLt⟩ : Fin 2048) := by
  funext c; apply Fin.ext
  fin_cases c <;> rfl

/-- The maximum along a tile's rows, started from −∞. -/
theorem tileMax_apply (v : FVec Ideal S128x2048 .f32) (h : S128x2048.Reduces [1] S128) (hφ : FKind.Formats .f32)
    (hacc : (0xFF800000#32 : BitVec 32) = FKind.maximumf.neutral .f32 hφ) (p : Fin 128) :
    multiReduction .maximumf [1] S128 v 0xFF800000#32 h hφ hacc (ix1 p)
      = (Finset.univ : Finset (Fin 2048)).fold max negInf (fun m => v (ix2 p m)) := by
  refine (Ideal.multiReduction_maximumf_single v _ h hφ hacc (ix1 p)).trans ?_
  have hf : (v ∘ h.lift (ix1 p)) = fun m : Fin 2048 => v (ix2 p m) := funext fun m => congrArg v (lift_tile h p m)
  exact congrArg (fun f => Finset.fold max negInf f (Finset.univ : Finset (Fin 2048))) hf

/-- The sum along a tile's rows. -/
theorem tileSum_apply (v : FVec Ideal S128x2048 .f32) (h : S128x2048.Reduces [1] S128) (hφ : FKind.Formats .f32)
    (hacc : (0x00000000#32 : BitVec 32) = FKind.add.neutral .f32 hφ) (p : Fin 128) :
    multiReduction .add [1] S128 v 0x00000000#32 h hφ hacc (ix1 p) = ∑ m : Fin 2048, v (ix2 p m) := by
  refine (Ideal.multiReduction_add_single v _ h hφ hacc (ix1 p)).trans ?_
  exact Finset.sum_congr rfl fun m _ => congrArg v (lift_tile h p m)

/-! ## The payloads -/

/-- A block cast to the scratch's format and shape is the block. -/
theorem copy1_apply (v0 : Vec Ideal S1x2048x256 .f32) (n : Fin 2048) (d : Fin 256) :
    k0_pay2 (F := Ideal) v0 (ix2 n d) = v0 (ix3 (0 : Fin 1) n d) := by
  unfold k0_pay2
  rw [shapeCast_self]
  exact shapeCast_1ab_ab_apply v0 _ n d

/-- The same for the other block. -/
theorem copy2_apply (v18 : Vec Ideal S1x2048x256 .f32) (n : Fin 2048) (d : Fin 256) :
    k0_pay4 (F := Ideal) v18 (ix2 n d) = v18 (ix3 (0 : Fin 1) n d) := by
  unfold k0_pay4
  rw [shapeCast_self]
  exact shapeCast_1ab_ab_apply v18 _ n d

/-- The projected queries. -/
theorem queries_apply (v6 : Vec Ideal S256x256 .f32) (v8 : Vec Ideal S2048x256 .bf16) (v10 : Vec Ideal S1x256 .f32) (n : Fin 2048) (e : Fin 256) :
    k0_pay3 (F := Ideal) v6 v8 v10 (ix2 n e) = (∑ k : Fin 256, v8 (ix2 n k) * v6 (ix2 e k)) + v10 (ix2 (0 : Fin 1) e) := by
  unfold k0_pay3
  rw [shapeCast_self, shapeCast_self]
  show matmul dot_S2048x256_S256x256_S2048x256_1_1_0_0_n_n none v8 v6 (constant (F := Ideal) S2048x256 .f32 0x00000000#32) (ix2 n e)
      + broadcastTo S2048x256 v10 broadcasts_S1x256_S2048x256 (ix2 n e) = _
  rw [proj_apply, broadcastTo_1b_ab_apply]

/-- The row softmax of a [128, 2048] tile, as the body spells it: the maximum along the rows kept as a column and
    spread back, the exponentials of the differences, their sums along the rows kept and spread back likewise, the
    quotient. -/
theorem softTile_apply (v : FVec Ideal S128x2048 .f32) (h : S128x2048.Reduces [1] S128) (hφ hφ' : FKind.Formats .f32)
    (hacc : (0xFF800000#32 : BitVec 32) = FKind.maximumf.neutral .f32 hφ)
    (hacc' : (0x00000000#32 : BitVec 32) = FKind.add.neutral .f32 hφ')
    (hc : S128.ShapeCasts S128x1) (hb : S128x1.Broadcasts S128x2048) (p : Fin 128) (m : Fin 2048) :
    divf (exp (subf v (broadcastTo S128x2048 (shapeCast S128x1 (multiReduction .maximumf [1] S128 v 0xFF800000#32 h hφ hacc) hc) hb)))
        (broadcastTo S128x2048 (shapeCast S128x1 (multiReduction .add [1] S128
          (exp (subf v (broadcastTo S128x2048 (shapeCast S128x1 (multiReduction .maximumf [1] S128 v 0xFF800000#32 h hφ hacc) hc) hb)))
          0x00000000#32 h hφ' hacc') hc) hb) (ix2 p m)
      = softRow (fun m' => v (ix2 p m')) m := by
  have hmax : ∀ m' : Fin 2048,
      broadcastTo S128x2048 (shapeCast S128x1 (multiReduction .maximumf [1] S128 v 0xFF800000#32 h hφ hacc) hc) hb (ix2 p m')
        = (Finset.univ : Finset (Fin 2048)).fold max negInf (fun m'' => v (ix2 p m'')) := fun m' => by
    rw [LibKeepdims.broadcastTo_a1_ab_apply, LibKeepdims.shapeCast_a_a1_apply, tileMax_apply]
  have hexp : ∀ m' : Fin 2048,
      exp (subf v (broadcastTo S128x2048 (shapeCast S128x1 (multiReduction .maximumf [1] S128 v 0xFF800000#32 h hφ hacc) hc) hb)) (ix2 p m')
        = Ideal.exp (v (ix2 p m') - (Finset.univ : Finset (Fin 2048)).fold max negInf (fun m'' => v (ix2 p m''))) := fun m' => by
    show Ideal.exp (v (ix2 p m') - broadcastTo S128x2048 (shapeCast S128x1 (multiReduction .maximumf [1] S128 v 0xFF800000#32 h hφ hacc) hc) hb (ix2 p m')) = _
    rw [hmax]
  show Ideal.div
      (exp (subf v (broadcastTo S128x2048 (shapeCast S128x1 (multiReduction .maximumf [1] S128 v 0xFF800000#32 h hφ hacc) hc) hb)) (ix2 p m))
      (broadcastTo S128x2048 (shapeCast S128x1 (multiReduction .add [1] S128
          (exp (subf v (broadcastTo S128x2048 (shapeCast S128x1 (multiReduction .maximumf [1] S128 v 0xFF800000#32 h hφ hacc) hc) hb)))
          0x00000000#32 h hφ' hacc') hc) hb (ix2 p m)) = _
  rw [hexp, LibKeepdims.broadcastTo_a1_ab_apply, LibKeepdims.shapeCast_a_a1_apply, tileSum_apply]
  unfold softRow
  exact congrArg (Ideal.div _) (Finset.sum_congr rfl fun m' _ => hexp m')

/-- A tile of probabilities: the row softmax of the tile's scores. -/
theorem probs_apply (v36 : Vec Ideal S128x256 .bf16) (v37 : Vec Ideal S2048x256 .bf16) (p : Fin 128) (m : Fin 2048) :
    k0_pay5 (F := Ideal) v36 v37 (ix2 p m) = softRow (fun m' => ∑ k : Fin 256, v36 (ix2 p k) * v37 (ix2 m' k)) m := by
  unfold k0_pay5
  refine (truncf_apply (ψ := .bf16) (φ := .f32) _ bitsLt_bf16_f32 (ix2 p m)).trans ?_
  refine (softTile_apply _ _ _ _ _ _ _ _ p m).trans ?_
  exact congrArg (fun s => softRow s m) (funext fun m' => scores_apply v36 v37 p m')

/-- What is stored into the probabilities' scratch is the tile of probabilities. -/
theorem probsStored_eq (v36 : Vec Ideal S128x256 .bf16) (v37 : Vec Ideal S2048x256 .bf16) :
    k0_pay6 (F := Ideal) v36 v37 = k0_pay5 (F := Ideal) v36 v37 := by
  unfold k0_pay6
  exact shapeCast_self _ _

/-- A tile of the first result: the tile's probabilities applied to the key rows. -/
theorem tileOut_apply (v36 : Vec Ideal S128x256 .bf16) (v37 : Vec Ideal S2048x256 .bf16) (u : Fin 1) (p : Fin 128) (d : Fin 256) :
    k0_pay7 (F := Ideal) v36 v37 (ix3 u p d) = ∑ m : Fin 2048, k0_pay5 (F := Ideal) v36 v37 (ix2 p m) * v37 (ix2 m d) := by
  unfold k0_pay7
  refine (shapeCast_ab_1ab_apply _ _ u p d).trans ?_
  exact applyKeys_apply _ v37 p d

/-- The second result's block: the transposed probabilities applied to the query rows. -/
theorem blockOut_apply (v25 : Vec Ideal S2048x2048 .bf16) (v26 : Vec Ideal S2048x256 .bf16) (u : Fin 1) (m : Fin 2048) (d : Fin 256) :
    k0_pay1 (F := Ideal) v25 v26 (constant (F := Ideal) S2048x256 .f32 0x00000000#32) (ix3 u m d)
      = ∑ n : Fin 2048, v25 (ix2 n m) * v26 (ix2 n d) := by
  unfold k0_pay1
  refine (shapeCast_ab_1ab_apply _ _ u m d).trans ?_
  exact applyQueries_apply v25 v26 m d

end Cert.KernelAttention

end
-- ==== Proof.BlockValue.lean ====
/-
  What one grid point's run leaves in the two output blocks, entry by entry: the block specification.

  The first output's block is stored in sixteen tiles of 128 rows; tile `k`'s rows are rows 128·k + p of the block,
  computed from query rows 128·k + p, so every tile is the same function of the block's row index, and the tiles
  cover the block. The second output's block is one store of the transposed product of the probabilities' scratch —
  itself sixteen tiles of the probabilities, each the same function of its row index, together covering the scratch —
  with the first input's block.
-/
import proofs.«155401_j50337016709459_2_alg».proof.Proof.Pieces
import proofs.«155401_j50337016709459_2_alg».proof.Proof.Payloads
import Idealize.ShloMosaic.Lib.Pipeline.Value

set_option maxRecDepth 16384

noncomputable section

open scoped BigOperators

namespace Cert.KernelBlock

open Cert.KernelIdeal Cert.KernelIdeal.Gen Cert.KernelIdeal.GenP Cert.KernelPieces Cert.KernelAttention Cert.Attention
open Idealize.ShloMosaic Idealize.ShloMosaic.ValueIdx Idealize.ShloMosaic.TcCoe Idealize.ShloMosaic.Tactic Idealize.SL.Sem

theorem zero2 : (![0, 0] : Fin 2 → ℕ) = fun _ => 0 := funext fun a => by fin_cases a <;> rfl
theorem zero3 : (![0, 0, 0] : Fin 3 → ℕ) = fun _ => 0 := funext fun a => by fin_cases a <;> rfl

/-! ## The loads of whole buffers -/

/-- A block loaded whole from its staging buffer is the block. -/
theorem load3_eq (a : Memref sig .tc .vmem S1x2048x256 .f32) (ha : a.IsWhole) (x : Vec Ideal S1x2048x256 .f32) :
    load3 a ha x = x := by
  show View.readAt (Elt Ideal) a.view (Rect.unit (s := S1x2048x256) ![0, 0, 0] S1x2048x256.size inb_S1x2048x256_S1x2048x256_0_0_0).toLoadRect (ha.unread x) = x
  rw [View.readAt_eq_ld, ha.read_unread, View.ld_unit_zero zero3]

/-- The weight loaded whole is the weight. -/
theorem loadW_eq (a : Memref sig .tc .vmem S256x256 .f32) (ha : a.IsWhole) (x : Vec Ideal S256x256 .f32) :
    View.readAt (Elt Ideal) a.view (Rect.unit (s := S256x256) ![0, 0] S256x256.size inb_S256x256_S256x256_0_0).toLoadRect (ha.unread x) = x := by
  rw [View.readAt_eq_ld, ha.read_unread, View.ld_unit_zero zero2]

/-- The bias row loaded whole is the bias row. -/
theorem loadB_eq (a : Memref sig .tc .vmem S1x256 .f32) (ha : a.IsWhole) (x : Vec Ideal S1x256 .f32) :
    View.readAt (Elt Ideal) a.view (Rect.unit (s := S1x256) ![0, 0] S1x256.size inb_S1x256_S1x256_0_0).toLoadRect (ha.unread x) = x := by
  rw [View.readAt_eq_ld, ha.read_unread, View.ld_unit_zero zero2]

/-- The copy of the first input's block reads back as the block, re-laid as a matrix. -/
theorem copyRead_eq (arg1 : Memref sig .tc .vmem S1x2048x256 .f32) (harg1 : arg1.IsWhole)
    (arg9 : Memref sig .tc .vmem S2048x256 .bf16) (x0 : Vec Ideal S1x2048x256 .f32) :
    copyRead arg1 harg1 arg9 x0 = k0_pay2 (F := Ideal) x0 := by
  unfold copyRead copyPieces
  rw [View.readCov_unit_zero _ zero2, load3_eq]

section
variable (arg1 : Memref sig .tc .vmem S1x2048x256 .f32) (harg1 : arg1.IsWhole) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x2048 .bf16) (harg10 : arg10.IsWhole)
  (x0 x1 : Vec Ideal S1x2048x256 .f32) (x2 : Vec Ideal S256x256 .f32) (x3 : Vec Ideal S1x256 .f32)

/-- The keys every trip loads are the second input's block, re-laid as a matrix. -/
theorem allK_eq : allK arg8 (keysAt arg2 harg2 arg8 x1) = k0_pay4 (F := Ideal) x1 := by
  unfold allK keysAt
  change arg8.view.readCov _ _ = _
  rw [View.readCov_unit_zero _ zero2, load3_eq]

/-- A key row's entry. -/
theorem allK_apply (m : Fin 2048) (e : Fin 256) :
    allK arg8 (keysAt arg2 harg2 arg8 x1) (ix2 m e) = x1 (ix3 (0 : Fin 1) m e) := by
  rw [allK_eq, copy2_apply]

/-- Row `p` of the tile of queries trip `k` loads is the projected query of row 128·k + p of the first input's block. -/
theorem tileQ_apply (k : Fin k0_t1_loop.trips) (p : Fin 128) (e : Fin 256) (n : Fin 2048) (hn : n.val = 128 * k.val + p.val) :
    tileQ arg7 (queriesAt arg1 harg1 arg3 harg3 arg4 harg4 arg7 arg9 x0 x2 x3) k (ix2 p e) = bquery x2 x0 x3 n e := by
  show View.readAt (Elt Ideal) arg7.view (Rect.unit (s := S2048x256) (k0_off1 k) S128x256.size (k0_off1_inb k)).toLoadRect
      (arg7.view.writes (Elt Ideal) arg7.view.junk _) (ix2 p e) = _
  rw [View.readAt_writes_junk_eq_canon, View.canon_unit_zero zero2, loadW_eq, copyRead_eq, loadB_eq]
  have hi : (Rect.unit (s := S2048x256) (k0_off1 k) S128x256.size (k0_off1_inb k)).toLoadRect.idx (ix2 p e) = ix2 n e :=
    funext fun a => Fin.ext (by
      match a with
      | ⟨0, _⟩ =>
        show k0_off1 k 0 + 1 * p.val = n.val
        rw [k0_off1_eq k, hn]
        show 128 * k.val + 1 * p.val = _
        omega
      | ⟨1, _⟩ =>
        show k0_off1 k 1 + 1 * e.val = e.val
        rw [k0_off1_eq k]
        show 0 + 1 * e.val = _
        omega)
  beta_reduce
  rw [hi, queries_apply]
  unfold bquery
  simp only [copy1_apply]

/-- A tile of the first result is the block specification's, at the tile's rows. -/
theorem tile_value (k : Fin k0_t1_loop.trips) (u : Fin 1) (p : Fin 128) (d : Fin 256) (n : Fin 2048) (d' : Fin 256)
    (hn : n.val = 128 * k.val + p.val) (hd : d'.val = d.val) :
    k0_pay7 (F := Ideal) (tileQ arg7 (queriesAt arg1 harg1 arg3 harg3 arg4 harg4 arg7 arg9 x0 x2 x3) k) (allK arg8 (keysAt arg2 harg2 arg8 x1)) (ix3 u p d)
      = bupd1 x2 x0 x1 x3 n d' := by
  obtain rfl : d' = d := Fin.ext hd
  rw [tileOut_apply]
  unfold bupd1 bprob bscore
  refine Finset.sum_congr rfl fun m _ => ?_
  rw [probs_apply, allK_apply]
  refine congrArg (· * x1 (ix3 (0 : Fin 1) m d')) (congrArg (fun s => softRow s m) (funext fun m' => ?_))
  refine Finset.sum_congr rfl fun e _ => ?_
  rw [tileQ_apply arg1 harg1 arg3 harg3 arg4 harg4 arg7 arg9 x0 x2 x3 k p e n hn, allK_apply]

/-- A tile of the probabilities is the block specification's, at the tile's rows. -/
theorem tile_probs (k : Fin k0_t1_loop.trips) (p : Fin 128) (m : Fin 2048) (n : Fin 2048) (m' : Fin 2048)
    (hn : n.val = 128 * k.val + p.val) (hm : m'.val = m.val) :
    k0_pay6 (F := Ideal) (tileQ arg7 (queriesAt arg1 harg1 arg3 harg3 arg4 harg4 arg7 arg9 x0 x2 x3) k) (allK arg8 (keysAt arg2 harg2 arg8 x1)) (ix2 p m)
      = bprob x2 x0 x1 x3 n m' := by
  obtain rfl : m' = m := Fin.ext hm
  rw [probsStored_eq, probs_apply]
  unfold bprob bscore
  refine congrArg (fun s => softRow s m') (funext fun m'' => ?_)
  refine Finset.sum_congr rfl fun e _ => ?_
  rw [tileQ_apply arg1 harg1 arg3 harg3 arg4 harg4 arg7 arg9 x0 x2 x3 k p e n hn, allK_apply]

end

end Cert.KernelBlock

end
-- ==== Proof.BlockOut.lean ====
/-
  The two output blocks one grid point's run leaves are the block specification's two results.
-/
import proofs.«155401_j50337016709459_2_alg».proof.Proof.BlockValue

set_option maxRecDepth 16384

noncomputable section

open scoped BigOperators

namespace Cert.KernelBlock

open Cert.KernelIdeal Cert.KernelIdeal.Gen Cert.KernelIdeal.GenP Cert.KernelPieces Cert.KernelAttention Cert.Attention
open Idealize.ShloMosaic Idealize.ShloMosaic.ValueIdx Idealize.ShloMosaic.TcCoe Idealize.ShloMosaic.Tactic Idealize.SL.Sem

variable (c : Dev nD) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x2048 .bf16) (harg10 : arg10.IsWhole)
  (x0 x1 : Vec Ideal S1x2048x256 .f32) (x2 : Vec Ideal S256x256 .f32) (x3 : Vec Ideal S1x256 .f32)

/-- The first output's block: every tile is the block specification's first result at the tile's rows, and the tiles
    cover the block. -/
theorem out4_apply (u : Fin 1) (n : Fin 2048) (d : Fin 256) :
    out0_A_4 (F := Ideal) c i arg1 harg1 arg2 harg2 arg3 harg3 arg4 harg4 arg5 harg5 arg6 harg6 arg7 harg7 arg8 harg8 arg9 harg9 arg10 harg10 x0 x1 x2 x3 (ix3 u n d) = bupd1 x2 x0 x1 x3 n d := by
  unfold out0_A_4
  refine View.read_writes_apply_of_pieces VO0_4 _ (fun y => bupd1 x2 x0 x1 x3 (y 1) (y 2)) _ ?_ (ix3 u n d)
    (cover0_A_4 c i arg1 harg1 arg2 harg2 arg3 harg3 arg4 harg4 arg5 harg5 arg6 harg6 arg7 harg7 arg8 harg8 arg9 harg9 arg10 harg10 x0 x1 x2 x3 (ix3 u n d))
  rw [run_out]
  intro q hq x
  obtain ⟨k, hk⟩ := (mem_pb Variants.none c none i arg1 harg1 arg2 harg2 arg3 harg3 arg4 harg4 arg5 harg5 arg6 harg6 arg7 harg7 arg8 harg8 arg9 harg9 arg10 harg10 _ _ k0_t1_loop.trips le_rfl).1 q hq
  rw [trip_out] at hk
  obtain rfl := List.mem_singleton.mp hk
  obtain ⟨u', p, d', rfl⟩ : ∃ (u' : Fin 1) (p : Fin 128) (d' : Fin 256), x = ix3 u' p d' := ⟨x 0, x 1, x 2, eq_ix3 x⟩
  refine tile_value arg1 harg1 arg2 harg2 arg3 harg3 arg4 harg4 arg7 arg8 arg9 x0 x1 x2 x3 k u' p d' _ _ ?_ ?_
  · show k0_off3 k 1 + 1 * p.val = 128 * k.val + p.val
    rw [k0_off3_eq k]
    show 128 * k.val + 1 * p.val = _
    omega
  · show k0_off3 k 2 + 1 * d'.val = d'.val
    rw [k0_off3_eq k]
    show 0 + 1 * d'.val = _
    omega

/-- The second output's block: the transposed product of the probabilities' scratch — whose tiles are the block
    specification's probabilities at their rows, and cover it — with the first input's block. -/
theorem out5_apply (u : Fin 1) (m : Fin 2048) (d : Fin 256) :
    out0_A_5 (F := Ideal) c i arg1 harg1 arg2 harg2 arg3 harg3 arg4 harg4 arg5 harg5 arg6 harg6 arg7 harg7 arg8 harg8 arg9 harg9 arg10 harg10 x0 x1 x2 x3 (ix3 u m d) = bupd2 x2 x0 x1 x3 m d := by
  unfold out0_A_5
  rw [run_last, View.read_writes_junk_eq_canon, View.canon_unit_zero zero3, blockOut_apply, copyRead_eq]
  unfold bupd2
  refine Finset.sum_congr rfl fun n _ => ?_
  rw [copy1_apply]
  refine congrArg (· * x0 (ix3 (0 : Fin 1) n d)) ?_
  rw [View.readCov_eq_canon']
  have hi : (Rect.unit (s := S2048x2048) ![0, 0] S2048x2048.size inb_S2048x2048_S2048x2048_0_0).toLoadRect.idx (ix2 n m) = ix2 n m :=
    funext fun a => Fin.ext (by
      match a with
      | ⟨0, _⟩ => show 0 + 1 * n.val = n.val; omega
      | ⟨1, _⟩ => show 0 + 1 * m.val = m.val; omega)
  show View.canon _ ((Rect.unit (s := S2048x2048) ![0, 0] S2048x2048.size inb_S2048x2048_S2048x2048_0_0).toLoadRect.idx (ix2 n m)) = _
  rw [hi]
  refine View.canon_apply_of_pieces (Val := Elt Ideal) (S := S2048x2048) (e := .bf16) (fun y => bprob x2 x0 x1 x3 (y 0) (y 1)) _ ?hG (ix2 n m) ?hc
  case hc =>
    refine View.cover_of_tiledL (s := S2048x2048) _ S128x2048.size ?_ _
    sl_kernel_rfl
  case hG =>
    intro q hq x
    obtain ⟨k, hk⟩ := (mem_pb Variants.none c none i arg1 harg1 arg2 harg2 arg3 harg3 arg4 harg4 arg5 harg5 arg6 harg6 arg7 harg7 arg8 harg8 arg9 harg9 arg10 harg10 _ _ k0_t1_loop.trips le_rfl).2 q hq
    rw [trip_scratch] at hk
    obtain rfl := List.mem_singleton.mp hk
    obtain ⟨p, m', rfl⟩ : ∃ (p : Fin 128) (m' : Fin 2048), x = ix2 p m' := ⟨x 0, x 1, eq_ix2 x⟩
    refine tile_probs arg1 harg1 arg2 harg2 arg3 harg3 arg4 harg4 arg7 arg8 arg9 x0 x1 x2 x3 k p m' _ _ ?_ ?_
    · show k0_off2 k 0 + 1 * p.val = 128 * k.val + p.val
      rw [k0_off2_eq k]
      show 128 * k.val + 1 * p.val = _
      omega
    · show k0_off2 k 1 + 1 * m'.val = m'.val
      rw [k0_off2_eq k]
      show 0 + 1 * m'.val = _
      omega

end Cert.KernelBlock

end
-- ==== Proof.Arrays.lean ====
/-
  From one grid point's blocks to the whole result arrays.

  Grid point `t` (one per batch entry) sees block `t` of each input array, the whole weight, and the bias as a row —
  the bias vector re-laid by the one host operation before the kernel —, and writes block `t` of each result
  array. What it writes is the specification's result at batch entry `t`; the eight blocks cover each result
  array, so after the run each result array is the specification's, whole.
-/
import proofs.«155401_j50337016709459_2_alg».proof.Proof.IdealFrame.Value
import proofs.«155401_j50337016709459_2_alg».proof.Proof.BlockOut
import Idealize.ShloMosaic.Lib.ValueLayout
import Idealize.ShloMosaic.Lib.StableHlo.Run

set_option maxRecDepth 16384

noncomputable section

open scoped BigOperators

namespace Cert.KernelArrays

open Cert.KernelIdeal Cert.KernelIdeal.Gen Cert.KernelIdeal.GenP Cert.KernelIdeal.ValueP Cert.KernelBlock Cert.Attention
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The four argument arrays on core `c`. -/
abbrev A1 (c : Dev nD) : Batch := m ((c : Thread nD τ).loc main_arg0)
abbrev A2 (c : Dev nD) : Batch := m ((c : Thread nD τ).loc main_arg1)
abbrev AW (c : Dev nD) : Weight := m ((c : Thread nD τ).loc main_arg2)
abbrev AB (c : Dev nD) : Bias := m ((c : Thread nD τ).loc main_arg3)

/-- The batch entry of a grid point. -/
def entryOf (t : Fin cfg0.N) : Fin 8 := ⟨t.val, lt_of_lt_of_eq t.isLt (show cfg0.N = 8 from N_0)⟩

theorem entryOf_val (t : Fin cfg0.N) : (entryOf t).val = t.val := rfl

/-! ## Where the windows' blocks sit (decided over the eight points) -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)

/-! ## The input blocks at a point -/

/-- The first input's block at point `t` is batch entry `t` of the first argument array. -/
theorem block1_apply (c : Dev nD) (t : Fin cfg0.N) (n : Fin 2048) (k : Fin 256) :
    iblk m c 0 t (ix3 (0 : Fin 1) n k) = A1 m c (ix3 (entryOf t) n k) := by
  unfold iblk
  show V m c main_arg0 (((cfg0.win 0).blk t).view.emb (ix3 (0 : Fin 1) n k)) = _
  rw [V_main_arg0]
  obtain ⟨e0, e1, e2⟩ := idx0 t
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 256 + 1 * k.val = k.val; omega

/-- The second input's block at point `t` is batch entry `t` of the second argument array. -/
theorem block2_apply (c : Dev nD) (t : Fin cfg0.N) (n : Fin 2048) (k : Fin 256) :
    iblk m c 1 t (ix3 (0 : Fin 1) n k) = A2 m c (ix3 (entryOf t) n k) := by
  unfold iblk
  show V m c main_arg1 (((cfg0.win 1).blk t).view.emb (ix3 (0 : Fin 1) n k)) = _
  rw [V_main_arg1]
  obtain ⟨e0, e1, e2⟩ := idx1 t
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 256 + 1 * k.val = k.val; omega

/-- The weight's block at every point is the weight. -/
theorem blockW_eq (c : Dev nD) (t : Fin cfg0.N) : (iblk m c 2 t : S256x256.Idx → Elt Ideal .f32) = AW m c := by
  funext j
  unfold iblk
  show V m c main_arg2 (((cfg0.win 2).blk t).view.emb j) = _
  rw [V_main_arg2]
  obtain ⟨e0, e1⟩ := idx2 t
  refine congrArg (m ((c : Thread nD τ).loc main_arg2)) (funext fun a => Fin.ext ?_)
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- What the one host operation before the kernel leaves: the bias vector as a row. -/
theorem V_row (c : Dev nD) :
    (V m c main_v0 : S1x256.Idx → Elt Ideal .f32) = shapeCast S1x256 (m ((c : Thread nD τ).loc main_arg3)) shapeCasts_S256_S1x256 := by
  dsimp only [Gen.V, Gen.hostOps0]
  after_results
  rfl

/-- The bias row's block at every point is the bias. -/
theorem blockB_apply (c : Dev nD) (t : Fin cfg0.N) (e : Fin 256) :
    iblk m c 3 t (ix2 (0 : Fin 1) e) = AB m c (ix1 e) := by
  unfold iblk
  show V m c main_v0 (((cfg0.win 3).blk t).view.emb (ix2 (0 : Fin 1) e)) = _
  obtain ⟨e0, e1⟩ := idx3 t
  have hi : ((cfg0.win 3).blk t).view.emb (ix2 (0 : Fin 1) e) = ix2 (0 : Fin 1) e := funext fun a => Fin.ext (by
    match a with
    | ⟨0, _⟩ => show win0_3.index t (0 : Fin 2) * 1 + 1 * 0 = 0; omega
    | ⟨1, _⟩ => show win0_3.index t (1 : Fin 2) * 256 + 1 * e.val = e.val; omega)
  rw [hi, V_row]
  exact shapeCast_a_1a_apply _ _ (0 : Fin 1) e

/-! ## What each point writes back -/

/-- Point `t` writes back block `t` of the specification's first result. -/
theorem flushed4_eq (c : Dev nD) (t : Fin cfg0.N) :
    (dats m 0 c).flushed 4 t = ((cfg0.win 4).blk t).view.read (Elt Ideal) (out1 (A1 m c) (A2 m c) (AW m c) (AB m c)) := by
  rw [flushed4_A]
  funext j
  obtain ⟨u, n, d, rfl⟩ : ∃ (u : Fin 1) (n : Fin 2048) (d : Fin 256), j = ix3 u n d := ⟨j 0, j 1, j 2, eq_ix3 j⟩
  show out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (ix3 u n d)
      = upd1 (A1 m c) (A2 m c) (AW m c) (AB m c) ((((cfg0.win 4).blk t).view.emb (ix3 u n d)) 0) ((((cfg0.win 4).blk t).view.emb (ix3 u n d)) 1) ((((cfg0.win 4).blk t).view.emb (ix3 u n d)) 2)
  refine (out4_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) u n d).trans ?_
  refine (bupd1_eq (A1 m c) (A2 m c) (iblk m c 2 t) (AB m c) (iblk m c 0 t) (iblk m c 1 t) (iblk m c 3 t) (entryOf t)
    (block1_apply m c t) (block2_apply m c t) (blockB_apply m c t) n d).trans ?_
  refine (congrArg (fun w => upd1 (A1 m c) (A2 m c) w (AB m c) (entryOf t) n d) (blockW_eq m c t)).trans ?_
  obtain ⟨e0, e1, e2⟩ := idx4 t
  refine upd1_congr (A1 m c) (A2 m c) (AW m c) (AB m c) ?_ ?_ ?_
  · show t.val = win0_4.index t (0 : Fin 3) * 1 + 1 * u.val
    have := u.isLt; omega
  · show n.val = win0_4.index t (1 : Fin 3) * 2048 + 1 * n.val
    omega
  · show d.val = win0_4.index t (2 : Fin 3) * 256 + 1 * d.val
    omega

/-- Point `t` writes back block `t` of the specification's second result. -/
theorem flushed5_eq (c : Dev nD) (t : Fin cfg0.N) :
    (dats m 0 c).flushed 5 t = ((cfg0.win 5).blk t).view.read (Elt Ideal) (out2 (A1 m c) (A2 m c) (AW m c) (AB m c)) := by
  rw [flushed5_A]
  funext j
  obtain ⟨u, n, d, rfl⟩ : ∃ (u : Fin 1) (n : Fin 2048) (d : Fin 256), j = ix3 u n d := ⟨j 0, j 1, j 2, eq_ix3 j⟩
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (ix3 u n d)
      = upd2 (A1 m c) (A2 m c) (AW m c) (AB m c) ((((cfg0.win 5).blk t).view.emb (ix3 u n d)) 0) ((((cfg0.win 5).blk t).view.emb (ix3 u n d)) 1) ((((cfg0.win 5).blk t).view.emb (ix3 u n d)) 2)
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) u n d).trans ?_
  refine (bupd2_eq (A1 m c) (A2 m c) (iblk m c 2 t) (AB m c) (iblk m c 0 t) (iblk m c 1 t) (iblk m c 3 t) (entryOf t)
    (block1_apply m c t) (block2_apply m c t) (blockB_apply m c t) n d).trans ?_
  refine (congrArg (fun w => upd2 (A1 m c) (A2 m c) w (AB m c) (entryOf t) n d) (blockW_eq m c t)).trans ?_
  obtain ⟨e0, e1, e2⟩ := idx5 t
  refine upd2_congr (A1 m c) (A2 m c) (AW m c) (AB m c) ?_ ?_ ?_
  · show t.val = win0_5.index t (0 : Fin 3) * 1 + 1 * u.val
    have := u.isLt; omega
  · show n.val = win0_5.index t (1 : Fin 3) * 2048 + 1 * n.val
    omega
  · show d.val = win0_5.index t (2 : Fin 3) * 256 + 1 * d.val
    omega

/-! ## The blocks cover the result arrays -/

/-- An index of the first result array is in point `t`'s block iff each coordinate is in the block's range. -/
theorem mem_blk4 (t : Fin cfg0.N) (i : S8x2048x256.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v1_0).slice (win0_4.rect t)).set ↔ _
  rw [View.set_slice_whole, Rect.mem_set_unit]
  exact Iff.rfl

/-- The same for the second result array. -/
theorem mem_blk5 (t : Fin cfg0.N) (i : S8x2048x256.Idx) :
    i ∈ ((cfg0.win 5).blk t).view.set ↔ ∀ a : Fin 3, win0_5.index t a * S1x2048x256.size a ≤ (i a).val ∧ (i a).val < win0_5.index t a * S1x2048x256.size a + S1x2048x256.size a := by
  show i ∈ ((View.whole main_v1_1).slice (win0_5.rect t)).set ↔ _
  rw [View.set_slice_whole, Rect.mem_set_unit]
  exact Iff.rfl

/-- Every index of the first result array is in the block of the point of its batch entry. -/
theorem cover4 (i : S8x2048x256.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  have hN : cfg0.N = 8 := N_0
  refine ⟨⟨(i 0).val, by rw [hN]; exact hi0⟩, flush0_4 _, ?_⟩
  obtain ⟨e0, e1, e2⟩ := idx4 ⟨(i 0).val, by rw [hN]; exact hi0⟩
  rw [mem_blk4]
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    have : ((⟨(i 0).val, by rw [hN]; exact hi0⟩ : Fin cfg0.N)).val = (i 0).val := rfl
    omega
  | ⟨1, _⟩ =>
    show win0_4.index ⟨(i 0).val, _⟩ (1 : Fin 3) * 2048 ≤ (i 1).val ∧ (i 1).val < win0_4.index ⟨(i 0).val, _⟩ (1 : Fin 3) * 2048 + 2048
    omega
  | ⟨2, _⟩ =>
    show win0_4.index ⟨(i 0).val, _⟩ (2 : Fin 3) * 256 ≤ (i 2).val ∧ (i 2).val < win0_4.index ⟨(i 0).val, _⟩ (2 : Fin 3) * 256 + 256
    omega

/-- The same for the second result array. -/
theorem cover5 (i : S8x2048x256.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 256 := (i 2).isLt
  have hN : cfg0.N = 8 := N_0
  refine ⟨⟨(i 0).val, by rw [hN]; exact hi0⟩, flush0_5 _, ?_⟩
  obtain ⟨e0, e1, e2⟩ := idx5 ⟨(i 0).val, by rw [hN]; exact hi0⟩
  rw [mem_blk5]
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    have : ((⟨(i 0).val, by rw [hN]; exact hi0⟩ : Fin cfg0.N)).val = (i 0).val := rfl
    omega
  | ⟨1, _⟩ =>
    show win0_5.index ⟨(i 0).val, _⟩ (1 : Fin 3) * 2048 ≤ (i 1).val ∧ (i 1).val < win0_5.index ⟨(i 0).val, _⟩ (1 : Fin 3) * 2048 + 2048
    omega
  | ⟨2, _⟩ =>
    show win0_5.index ⟨(i 0).val, _⟩ (2 : Fin 3) * 256 ≤ (i 2).val ∧ (i 2).val < win0_5.index ⟨(i 0).val, _⟩ (2 : Fin 3) * 256 + 256
    omega

/-! ## The result arrays, and the run -/

/-- After the run the first result array is the specification's first result. -/
theorem final4 (c : Dev nD) : (dats m 0 c).arrAt 4 cfg0.N = out1 (A1 m c) (A2 m c) (AW m c) (AB m c) :=
  (dats m 0 c).arrAt_eq_of_cover 4 (out1 (A1 m c) (A2 m c) (AW m c) (AB m c)) (fun t _ => flushed4_eq m c t) cover4

/-- After the run the second result array is the specification's second result. -/
theorem final5 (c : Dev nD) : (dats m 0 c).arrAt 5 cfg0.N = out2 (A1 m c) (A2 m c) (AW m c) (AB m c) :=
  (dats m 0 c).arrAt_eq_of_cover 5 (out2 (A1 m c) (A2 m c) (AW m c) (AB m c)) (fun t _ => flushed5_eq m c t) cover5

/-- Every weakly fair execution of the idealized kernel terminates with the two result arrays at the specification's
    two results of the argument arrays, and the argument arrays unchanged. -/
theorem run : θ_run defs (onTc (τ := τ) (main (F := Ideal))) ⟨m, fun _ => 0, ρ⟩ fun r => ∀ c : Dev nD,
      r.2.mem ((c : Thread nD τ).loc main_v1_0) = out1 (A1 m c) (A2 m c) (AW m c) (AB m c)
      ∧ r.2.mem ((c : Thread nD τ).loc main_v1_1) = out2 (A1 m c) (A2 m c) (AW m c) (AB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelArrays

end
-- ==== Proof.lean ====
/-
  The certificate of a cross-attention kernel against its jnp reference, over the extended reals.

  Both programs take two batches `x1`, `x2` of 8 matrices of 2048 rows and 256 features, a 256 × 256 weight `W` and a bias
  `b`, and compute (Proof/Attention.lean): the projected queries `q = x1·Wᵀ + b`; the scores `s = q·x2ᵀ` per batch entry;
  the softmax of each score row — the exponential of the score below the row's maximum, over the sum of the row's such
  exponentials —; the first result `p·x2` and the second result `pᵀ·x1`.

  The reference does this with whole-array operations (Proof/Ref.lean reads them entry by entry). The kernel runs one
  grid point per batch entry; a point copies its two blocks and the projected queries into scratch buffers, then in
  sixteen trips of a loop computes the probabilities of 128 query rows at a time, storing them into a scratch matrix
  and their product with the keys into the first result's block, and after the loop forms the second result's block
  as one transposed product of the whole scratch matrix (Proof/Payloads.lean: the arithmetic; Proof/Pieces.lean: what
  each store leaves; Proof/BlockValue.lean, Proof/BlockOut.lean: the two blocks as functions of the point's inputs;
  Proof/Arrays.lean: the result arrays). Over the extended reals the changes of float format are the identity and a
  matrix product is a plain sum, so the two programs apply the same operations to the same sums: no finiteness of the
  inputs is used. The idealization rewrote nothing, so `preserves` is trivial; the three frames are the programs' runs.
-/
import proofs.«155401_j50337016709459_2_alg».proof.Defs
import proofs.«155401_j50337016709459_2_alg».proof.Proof.Gen.Kernel
import proofs.«155401_j50337016709459_2_alg».proof.Proof.Gen.KernelIdeal
import proofs.«155401_j50337016709459_2_alg».proof.Proof.Gen.ReferenceIdeal
import proofs.«155401_j50337016709459_2_alg».proof.Proof.Gen.Pre_finite_inputs
import proofs.«155401_j50337016709459_2_alg».proof.Proof.Gen.ReferenceIdeal.Run
import proofs.«155401_j50337016709459_2_alg».proof.Proof.Gen.ReferenceIdeal.Read
import proofs.«155401_j50337016709459_2_alg».proof.Proof.WordFrame.Frame
import proofs.«155401_j50337016709459_2_alg».proof.Proof.IdealFrame.Frame
import proofs.«155401_j50337016709459_2_alg».proof.Proof.Ref
import proofs.«155401_j50337016709459_2_alg».proof.Proof.Arrays
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_word : Cert.frame_Kernel := fun m ρ _ => Cert.Kernel.GenP.frame m ρ

/-- So does the idealized kernel. -/
theorem frame_ideal : Cert.frame_KernelIdeal := fun m ρ _ => Cert.KernelIdeal.GenP.frame m ρ

/-- So does the idealized reference: its run, with the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The idealized kernel ends with the specification's two results of its argument arrays, and the idealized reference,
    run from memories that agree on the arguments, ends with the same two. -/
theorem algebraic : Cert.algebraic_KernelIdeal_ReferenceIdeal := by
  intro m ρ m' ρ' _ hagree
  refine ⟨fun c => Cert.Attention.out1 (Cert.KernelArrays.A1 m c) (Cert.KernelArrays.A2 m c) (Cert.KernelArrays.AW m c) (Cert.KernelArrays.AB m c),
    fun c => Cert.Attention.out2 (Cert.KernelArrays.A1 m c) (Cert.KernelArrays.A2 m c) (Cert.KernelArrays.AW m c) (Cert.KernelArrays.AB m c),
    Cert.KernelArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v16_eq _ _ _ _).trans (Cert.RefAttention.result1 _ _ _ _)
  · rw [(hagree c).1, (hagree c).2.1, (hagree c).2.2.1, (hagree c).2.2.2]
    exact (Cert.ReferenceIdeal.Read.val_main_v17_eq _ _ _ _).trans (Cert.RefAttention.result2 _ _ _ _)

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
